-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S16384x4096 : Shape := ⟨2, ![16384, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_

variable [Facts]

def fn {F : FTy → Type} [FloatOps F] (main_arg0 : FVec F S8192x4096 .f32) (main_arg1 : FVec F S16384x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  main_v8
-- ==== Kernel.lean ====
abbrev S8192x4096 : Shape := ⟨2, ![8192, 4096]⟩
abbrev S16384x4096 : Shape := ⟨2, ![16384, 4096]⟩
abbrev S_ : Shape := ⟨0, ![]⟩
abbrev S8192x16384 : Shape := ⟨2, ![8192, 16384]⟩
abbrev S2048x512 : Shape := ⟨2, ![2048, 512]⟩
abbrev S1024x512 : Shape := ⟨2, ![1024, 512]⟩
abbrev S2048x1024 : Shape := ⟨2, ![2048, 1024]⟩

abbrev nBuf : Space → Nat
  | .hbm => 23
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S_, .f32⟩
  | .hbm, ⟨18, _⟩ => ⟨S16384x4096, .f32⟩
  | .hbm, ⟨19, _⟩ => ⟨S16384x4096, .f32⟩
  | .hbm, ⟨20, _⟩ => ⟨S16384x4096, .bf16⟩
  | .hbm, ⟨21, _⟩ => ⟨S8192x4096, .bf16⟩
  | .hbm, ⟨22, _⟩ => ⟨S8192x16384, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_cst_3 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  reducesTo_S16384x4096_S_d0_1 : S16384x4096.ReducesTo [0, 1] S_
  h_S_ : 0 < S_.numel
  bcast_S_S16384x4096 : S_.BroadcastsInDim S16384x4096 (![] : Fin 0 → Fin S16384x4096.rank)
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x4096.size a
  hwx0_1 : ∀ i : grid0.Coords, EltTy.bits .bf16 = 32 ∨ (Rect.block (s := S16384x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x16384.size a
  hwx0_2 : ∀ i : grid0.Coords, EltTy.bits .f32 = 32 ∨ (Rect.block (s := S8192x16384) S2048x1024.size (cc0_transform_2 i) (hinb0_2 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v9) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S16384x4096 : Shape := ⟨2, ![16384, 4096]⟩
abbrev S_ : Shape := ⟨0, ![]⟩
abbrev S4096x16384 : Shape := ⟨2, ![4096, 16384]⟩
abbrev S8192x16384 : Shape := ⟨2, ![8192, 16384]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S_, .f32⟩
  | .hbm, ⟨18, _⟩ => ⟨S16384x4096, .f32⟩
  | .hbm, ⟨19, _⟩ => ⟨S16384x4096, .f32⟩
  | .hbm, ⟨20, _⟩ => ⟨S4096x16384, .f32⟩
  | .hbm, ⟨21, _⟩ => ⟨S8192x16384, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_cst_3 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]

class Facts₀ : Prop where
  reducesTo_S16384x4096_S_d0_1 : S16384x4096.ReducesTo [0, 1] S_
  h_S_ : 0 < S_.numel
  bcast_S_S16384x4096 : S_.BroadcastsInDim S16384x4096 (![] : Fin 0 → Fin S16384x4096.rank)
  transposes_S16384x4096_S4096x16384_1_0 : S16384x4096.Transposes [1, 0] S4096x16384
  dot_S8192x4096_S4096x16384_S8192x16384_1_0_0_1_n_n_wf : DotDims.WF S8192x4096 S4096x16384 S8192x16384 [1] [0] [0] [1] [] []

variable [Facts₀]

def dot_S8192x4096_S4096x16384_S8192x16384_1_0_0_1_n_n : DotDims S8192x4096 S4096x16384 S8192x16384 where
  lhsContracting := [1]
  rhsContracting := [0]
  lhsNonContracting := [0]
  rhsNonContracting := [1]
  lhsBatch := []
  rhsBatch := []
  wf := dot_S8192x4096_S4096x16384_S8192x16384_1_0_0_1_n_n_wf

class Facts : Prop extends Facts₀ where

variable [Facts]
-- ==== Proof.Frames.lean ====
/-
  The three frame conjuncts and the (empty) idealization ledger.
  Each kernel program terminates without fault and leaves its two argument arrays as it found them; the
  reference is a straight line of host operations, whose run never writes an argument array.
-/
import proofs.«134805_j31688268710665_2_alg».proof.Defs
import proofs.«134805_j31688268710665_2_alg».proof.Proof.Gen.Kernel.Frame
import proofs.«134805_j31688268710665_2_alg».proof.Proof.Gen.KernelIdeal.Frame
import proofs.«134805_j31688268710665_2_alg».proof.Proof.Gen.KernelIdeal.Value
import proofs.«134805_j31688268710665_2_alg».proof.Proof.Gen.ReferenceIdeal.Run
import proofs.«134805_j31688268710665_2_alg».proof.Proof.Gen.ReferenceIdeal.Read
import proofs.«134805_j31688268710665_2_alg».proof.Proof.Gen.Pre_finite_inputs

noncomputable section

open Idealize.ShloMosaic Idealize.SL.Sem

namespace Cert.Proof.Frames

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2)
    (Cert.ReferenceIdeal.Value.run (F := Ideal) m ρ)

/-- No operation of the kernel was rewritten when it was read at the ideal instance. -/
theorem preserves : Cert.preserves_Kernel_KernelIdeal := trivial

end Cert.Proof.Frames

end
-- ==== Proof.Pieces.lean ====
/-
  What one grid step of the kernel body leaves behind, as values.

  The body keeps a [2048,1024] accumulator across the eight steps of the contraction axis: a first step stores the
  zero block and then adds the step's product, every later step adds its product to what the step before left, and the
  last step also copies the accumulator to the output block.  Each of the four facts below reads the stores that one
  run of the body made back as the accumulation step (one pure function of the accumulator and the two operand
  blocks), for arbitrary whole staging buffers.
-/
import proofs.«134805_j31688268710665_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- At a first step of the contraction axis the accumulator is zeroed and then receives the step's product:
    it is left holding the accumulation step applied to the zero block. -/
theorem scratch_first (c : Dev nD) (i : grid0.Coords) (a3 : Memref sig .tc .vmem S2048x512 .bf16) (h3 : a3.IsWhole)
    (a4 : Memref sig .tc .vmem S1024x512 .bf16) (h4 : a4.IsWhole) (a5 : Memref sig .tc .vmem S2048x1024 .f32) (h5 : a5.IsWhole)
    (a6 : Memref sig .tc .vmem S2048x1024 .f32) (h6 : a6.IsWhole) (hc0 : cond0_0 i) (hc1 : ¬cond0_1 i)
    (x0 : Vec F S2048x512 .bf16) (x1 : Vec F S1024x512 .bf16) :
    sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S2048x1024) hz, View.readCov_unit_zero (S := S2048x1024) _ hz]
  simp only [View.readAt_eq_ld, h3.read_unread, h4.read_unread, View.ld_unit_zero (S := S2048x512) hz,
    View.ld_unit_zero (S := S1024x512) hz]

/-- At a middle step the accumulator, holding `xs0`, is left holding the accumulation step applied to `xs0`. -/
theorem scratch_middle (c : Dev nD) (i : grid0.Coords) (a3 : Memref sig .tc .vmem S2048x512 .bf16) (h3 : a3.IsWhole)
    (a4 : Memref sig .tc .vmem S1024x512 .bf16) (h4 : a4.IsWhole) (a5 : Memref sig .tc .vmem S2048x1024 .f32) (h5 : a5.IsWhole)
    (a6 : Memref sig .tc .vmem S2048x1024 .f32) (h6 : a6.IsWhole) (hc0 : ¬cond0_0 i) (hc1 : ¬cond0_1 i)
    (x0 : Vec F S2048x512 .bf16) (x1 : Vec F S1024x512 .bf16) (xs0 : Vec F S2048x1024 .f32) :
    sout0_B_0 c i a3 h3 a4 h4 a5 h5 a6 h6 hc0 hc1 x0 x1 xs0 = k0_pay2 xs0 x0 x1 := by
  unfold sout0_B_0
  rw [View.read_writes_eq_canon _ _ _ (scover0_B_0 c i a3 h3 a4 h4 a5 h5 a6 h6 hc0 hc1 x0 x1 xs0)]
  unfold kernelRun0_B
  dsimp only
  rw [View.canon_unit_zero hz]
  simp only [View.readAt_eq_ld, h3.read_unread, h4.read_unread, h6.read_unread, View.ld_unit_zero (S := S2048x512) hz,
    View.ld_unit_zero (S := S1024x512) hz, View.ld_unit_zero (S := S2048x1024) hz]

/-- At a last step the accumulator is updated in the same way, -/
theorem scratch_last (c : Dev nD) (i : grid0.Coords) (a3 : Memref sig .tc .vmem S2048x512 .bf16) (h3 : a3.IsWhole)
    (a4 : Memref sig .tc .vmem S1024x512 .bf16) (h4 : a4.IsWhole) (a5 : Memref sig .tc .vmem S2048x1024 .f32) (h5 : a5.IsWhole)
    (a6 : Memref sig .tc .vmem S2048x1024 .f32) (h6 : a6.IsWhole) (hc0 : ¬cond0_0 i) (hc1 : cond0_1 i)
    (x0 : Vec F S2048x512 .bf16) (x1 : Vec F S1024x512 .bf16) (xs0 : Vec F S2048x1024 .f32) :
    sout0_C_0 c i a3 h3 a4 h4 a5 h5 a6 h6 hc0 hc1 x0 x1 xs0 = k0_pay2 xs0 x0 x1 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S2048x512) hz,
    View.ld_unit_zero (S := S1024x512) hz, View.ld_unit_zero (S := S2048x1024) hz]

/-- and the output block is stored with the accumulator's new contents. -/
theorem out_last (c : Dev nD) (i : grid0.Coords) (a3 : Memref sig .tc .vmem S2048x512 .bf16) (h3 : a3.IsWhole)
    (a4 : Memref sig .tc .vmem S1024x512 .bf16) (h4 : a4.IsWhole) (a5 : Memref sig .tc .vmem S2048x1024 .f32) (h5 : a5.IsWhole)
    (a6 : Memref sig .tc .vmem S2048x1024 .f32) (h6 : a6.IsWhole) (hc0 : ¬cond0_0 i) (hc1 : cond0_1 i)
    (x0 : Vec F S2048x512 .bf16) (x1 : Vec F S1024x512 .bf16) (xs0 : Vec F S2048x1024 .f32) :
    out0_C_2 c i a3 h3 a4 h4 a5 h5 a6 h6 hc0 hc1 x0 x1 xs0 = k0_pay2 xs0 x0 x1 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz, View.readCov_unit_zero (S := S2048x1024) _ hz]
  simp only [View.readAt_eq_ld, h3.read_unread, h4.read_unread, h6.read_unread, View.ld_unit_zero (S := S2048x512) hz,
    View.ld_unit_zero (S := S1024x512) hz, View.ld_unit_zero (S := S2048x1024) hz]

end Cert.KernelIdeal.Pieces
end
-- ==== Proof.Payload.lean ====
/-
  The accumulation step of the kernel body, read at one entry at the ideal instance.

  The step takes the accumulator block `acc` [2048,1024], an operand block `x` [2048,512] of the left matrix and an
  operand block `w` [1024,512] of the (already ternarized) weight, and returns `acc + x · wᵀ`: entry (p, q) is
  `acc (p, q) + Σ_kk x (p, kk) · w (q, kk)` over the 512 columns of the two blocks.  The block the first step
  starts from is the zero block.
-/
import proofs.«134805_j31688268710665_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payload

open Cert.KernelIdeal Cert.KernelIdeal.Gen

/-- The dimension record of the body's matrix product: both operands contracted along their second axis. -/
abbrev blockDot : DotDims S2048x512 S1024x512 S2048x1024 := dot_S2048x512_S1024x512_S2048x1024_1_1_0_0_n_n

theorem lhs_row (j : S2048x1024.Idx) (k : blockDot.contr.Idx) : (blockDot.lhsIdx j k 0).val = (j 0).val := by
  unfold DotDims.lhsIdx
  rw [dif_neg (show ¬(0 : Fin S2048x512.rank) ∈ blockDot.lhsBatch by decide),
    dif_pos (show (0 : Fin S2048x512.rank) ∈ blockDot.lhsNonContracting by decide)]
  rfl

theorem lhs_col (j : S2048x1024.Idx) (k : blockDot.contr.Idx) : (blockDot.lhsIdx j k 1).val = (k ⟨0, by decide⟩).val :=
  blockDot.lhsIdx_val_of_single rfl j k

theorem rhs_row (j : S2048x1024.Idx) (k : blockDot.contr.Idx) : (blockDot.rhsIdx j k 0).val = (j 1).val := by
  unfold DotDims.rhsIdx
  rw [dif_neg (show ¬(0 : Fin S1024x512.rank) ∈ blockDot.rhsBatch by decide),
    dif_pos (show (0 : Fin S1024x512.rank) ∈ blockDot.rhsNonContracting by decide)]
  rfl

theorem rhs_col (j : S2048x1024.Idx) (k : blockDot.contr.Idx) : (blockDot.rhsIdx j k 1).val = (k ⟨0, by decide⟩).val :=
  blockDot.rhsIdx_val_of_single rfl j k

/-- The block a first step starts from is zero at every entry. -/
theorem zero_apply (y : S2048x1024.Idx) : k0_pay1 (F := Ideal) y = 0 := by
  unfold k0_pay1
  simp only [shapeCast_self]
  exact Ideal.ofBits_zero_f32

/-- Entry (p, q) of the accumulation step. -/
theorem step_apply (acc : Vec Ideal S2048x1024 .f32) (x : Vec Ideal S2048x512 .bf16) (w : Vec Ideal S1024x512 .bf16)
    (p : Fin 2048) (q : Fin 1024) :
    k0_pay2 (F := Ideal) acc x w (ix2 p q) = acc (ix2 p q) + ∑ kk : Fin 512, x (ix2 p kk) * w (ix2 q kk) := by
  unfold k0_pay2
  simp only [shapeCast_self]
  refine congrArg (acc (ix2 p q) + ·) ?_
  simp only [matmul]
  rw [Ideal.matmul_constant_zero_apply, ← Equiv.sum_comp (contrEquiv1 blockDot 512 rfl rfl).symm]
  refine Finset.sum_congr rfl fun kk _ => ?_
  have hk := contrEquiv1_symm_val blockDot 512 rfl rfl kk
  have el : blockDot.lhsIdx (ix2 p q) ((contrEquiv1 blockDot 512 rfl rfl).symm kk) = ix2 p kk := funext fun a => Fin.ext (by
    match a with
    | ⟨0, _⟩ => exact lhs_row _ _
    | ⟨1, _⟩ => exact (lhs_col _ _).trans hk)
  have er : blockDot.rhsIdx (ix2 p q) ((contrEquiv1 blockDot 512 rfl rfl).symm kk) = ix2 q kk := funext fun a => Fin.ext (by
    match a with
    | ⟨0, _⟩ => exact rhs_row _ _
    | ⟨1, _⟩ => exact (rhs_col _ _).trans hk)
  rw [el, er]

end Cert.KernelIdeal.Payload

end
-- ==== Proof.Blocks.lean ====
/-
  Where the kernel's windows sit in their arrays.

  The grid is [4,16,8], walked row-major: point `t` is (i, j, k) with `t = 128·i + 8·j + k`.  At that point the left
  operand's block is rows `2048·i …` and columns `512·k …` of its array, the weight's block is rows `1024·j …` and
  columns `512·k …` of its array, and the output's block is rows `2048·i …` and columns `1024·j …` of the result.
-/
import proofs.«134805_j31688268710665_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The three index maps at every grid point, in terms of the point's position in the row-major walk. -/
theorem index_facts : ∀ t : Fin cfg0.N,
    win0_0.index t (0 : Fin 2) = t.val / 128 ∧ win0_0.index t (1 : Fin 2) = t.val % 8
    ∧ win0_1.index t (0 : Fin 2) = t.val / 8 % 16 ∧ win0_1.index t (1 : Fin 2) = t.val % 8
    ∧ win0_2.index t (0 : Fin 2) = t.val / 128 ∧ win0_2.index t (1 : Fin 2) = t.val / 8 % 16 :=
  (by decide +kernel : ∀ t : Fin grid0.N, _)

/-- Entry (p, kk) of the left operand's block at point `t` is entry (2048·i + p, 512·k + kk) of its array. -/
theorem left_block (c : Dev nD) (t : Fin cfg0.N) (p : Fin 2048) (kk : Fin 512) (r : Fin 8192) (k : Fin 4096)
    (hr : r.val = 2048 * (t.val / 128) + p.val) (hk : k.val = 512 * (t.val % 8) + kk.val) :
    (iblk m c 0 t : Vec F S2048x512 .bf16) (ix2 p kk) = V m c main_v9 (ix2 r k) := by
  obtain ⟨e0, e1, -, -, -, -⟩ := index_facts t
  unfold iblk
  rw [View.read_apply]
  show V m c main_v9 _ = V m c main_v9 _
  refine congrArg (V m c main_v9) ?_
  funext a
  apply Fin.ext
  match a with
  | ⟨0, _⟩ => show win0_0.index t (0 : Fin 2) * 2048 + 1 * p.val = r.val; rw [e0, hr]; omega
  | ⟨1, _⟩ => show win0_0.index t (1 : Fin 2) * 512 + 1 * kk.val = k.val; rw [e1, hk]; omega

/-- Entry (q, kk) of the weight's block at point `t` is entry (1024·j + q, 512·k + kk) of its array. -/
theorem weight_block (c : Dev nD) (t : Fin cfg0.N) (q : Fin 1024) (kk : Fin 512) (s : Fin 16384) (k : Fin 4096)
    (hs : s.val = 1024 * (t.val / 8 % 16) + q.val) (hk : k.val = 512 * (t.val % 8) + kk.val) :
    (iblk m c 1 t : Vec F S1024x512 .bf16) (ix2 q kk) = V m c main_v8 (ix2 s k) := by
  obtain ⟨-, -, e2, e3, -, -⟩ := index_facts t
  unfold iblk
  rw [View.read_apply]
  show V m c main_v8 _ = V m c main_v8 _
  refine congrArg (V m c main_v8) ?_
  funext a
  apply Fin.ext
  match a with
  | ⟨0, _⟩ => show win0_1.index t (0 : Fin 2) * 1024 + 1 * q.val = s.val; rw [e2, hs]; omega
  | ⟨1, _⟩ => show win0_1.index t (1 : Fin 2) * 512 + 1 * kk.val = k.val; rw [e3, hk]; omega

end Cert.KernelIdeal.Blocks

end
-- ==== Proof.LibRangeBlocks.lean ====
/-
  Sums over consecutive blocks of a range.

  A sum of `b · a` terms, taken `b` at a time: `a` consecutive partial sums of `b` terms each make up the whole sum,
  in any commutative additive monoid (in particular over the extended reals, infinities included).  This is the law
  that joins a contraction carried out in `a` steps of `b` columns each to the contraction over all `b · a` columns.
  Stated over `Finset.range` and, for the inner and outer sums, over `Fin`.
-/
import Mathlib.Algebra.BigOperators.Fin

namespace Cert.LibRangeBlocks

/-- `a` consecutive partial sums of `b` terms each make up the sum of the first `b · a` terms. -/
theorem sum_range_blocks {M : Type*} [AddCommMonoid M] (f : ℕ → M) (b : ℕ) :
    ∀ a : ℕ, ∑ s ∈ Finset.range a, ∑ kk ∈ Finset.range b, f (b * s + kk) = ∑ n ∈ Finset.range (b * a), f n
  | 0 => by simp
  | a + 1 => by
    rw [Finset.sum_range_succ, sum_range_blocks f b a, Nat.mul_succ, Finset.sum_range_add]

/-- The same with the inner sums over `Fin b` and the whole sum over `Fin (b · a)`. -/
theorem sum_fin_blocks {M : Type*} [AddCommMonoid M] (f : ℕ → M) (b a : ℕ) :
    ∑ s ∈ Finset.range a, ∑ kk : Fin b, f (b * s + kk.val) = ∑ n : Fin (b * a), f n.val :=
  calc ∑ s ∈ Finset.range a, ∑ kk : Fin b, f (b * s + kk.val)
      = ∑ s ∈ Finset.range a, ∑ kk ∈ Finset.range b, f (b * s + kk) :=
        Finset.sum_congr rfl fun s _ => (Finset.sum_range (fun kk => f (b * s + kk))).symm
    _ = ∑ n ∈ Finset.range (b * a), f n := sum_range_blocks f b a
    _ = ∑ n : Fin (b * a), f n.val := Finset.sum_range _

end Cert.LibRangeBlocks
-- ==== Proof.Spec.lean ====
/-
  The specification, and the one law that joins the two programs.

  Both programs compute `x · wᵀ` for `x` of shape [8192,4096] and a weight `w` of shape [16384,4096]: entry (r, s)
  of the result is `Σ_k x (r, k) · w (s, k)` over the 4096 columns.  The reference contracts all 4096 columns at
  once; the kernel adds up eight partial products of 512 columns each.  Over the extended reals addition is
  commutative and associative everywhere (infinities included), so the eight partial sums make up the whole sum: no
  finiteness of the entries is needed.
-/
import Idealize.ShloMosaic.PureOps.Ideal
import Idealize.ShloMosaic.Lib.ValueIdx
import proofs.«134805_j31688268710665_2_alg».proof.Proof.LibRangeBlocks

noncomputable section

open Idealize.ShloMosaic Idealize.ShloMosaic.ValueIdx

namespace Cert.Spec

/-- The product of the entries in column `n` of row `r` of `x` and row `s` of `w`; zero past the last column. -/
def term (X : (⟨2, ![8192, 4096]⟩ : Shape).Idx → EReal) (W : (⟨2, ![16384, 4096]⟩ : Shape).Idx → EReal)
    (r : Fin 8192) (s : Fin 16384) (n : ℕ) : EReal :=
  if h : n < 4096 then X (ix2 r ⟨n, h⟩) * W (ix2 s ⟨n, h⟩) else 0

theorem term_of_lt (X : (⟨2, ![8192, 4096]⟩ : Shape).Idx → EReal) (W : (⟨2, ![16384, 4096]⟩ : Shape).Idx → EReal)
    (r : Fin 8192) (s : Fin 16384) (k : Fin 4096) : term X W r s k.val = X (ix2 r k) * W (ix2 s k) := by
  unfold term; rw [dif_pos k.isLt]

/-- Entry (r, s) of `x · wᵀ`. -/
def entry (X : (⟨2, ![8192, 4096]⟩ : Shape).Idx → EReal) (W : (⟨2, ![16384, 4096]⟩ : Shape).Idx → EReal)
    (r : Fin 8192) (s : Fin 16384) : EReal :=
  ∑ k : Fin 4096, X (ix2 r k) * W (ix2 s k)

/-- The whole result `x · wᵀ`, of shape [8192,16384]. -/
def prodT (X : (⟨2, ![8192, 4096]⟩ : Shape).Idx → EReal) (W : (⟨2, ![16384, 4096]⟩ : Shape).Idx → EReal) :
    (⟨2, ![8192, 16384]⟩ : Shape).Idx → EReal :=
  fun i => entry X W ⟨(i 0).val, idx2_lt0 i⟩ ⟨(i 1).val, idx2_lt1 i⟩

/-- THE LAW: eight partial products over 512 columns each add up to the product over all 4096 columns. -/
theorem blocks_sum (X : (⟨2, ![8192, 4096]⟩ : Shape).Idx → EReal) (W : (⟨2, ![16384, 4096]⟩ : Shape).Idx → EReal)
    (r : Fin 8192) (s : Fin 16384) :
    ∑ t ∈ Finset.range 8, ∑ kk : Fin 512, term X W r s (512 * t + kk.val) = entry X W r s := by
  unfold entry
  calc ∑ t ∈ Finset.range 8, ∑ kk : Fin 512, term X W r s (512 * t + kk.val)
      = ∑ k : Fin 4096, term X W r s k.val := Cert.LibRangeBlocks.sum_fin_blocks (term X W r s) 512 8
    _ = ∑ k : Fin 4096, X (ix2 r k) * W (ix2 s k) := Finset.sum_congr rfl fun k _ => term_of_lt X W r s k

end Cert.Spec

end
-- ==== Proof.Fold.lean ====
/-
  The accumulator after the last of the eight contraction steps, entry by entry.

  The grid's innermost axis is the contraction axis: points `8·u, …, 8·u + 7` work on one output block.  The first
  zeroes the accumulator and adds its partial product, each later one adds its own.  So after point `8·u + 7` entry
  (p, q) of the accumulator is `0` plus the eight partial products, each a sum over the 512 columns of that step's
  operand blocks; read in the operand arrays, the eight column ranges are consecutive and make up all 4096 columns,
  and the entry is the full inner product of a row of the left array and a row of the weight array.
-/
import proofs.«134805_j31688268710665_2_alg».proof.Proof.Gen.KernelIdeal.Value
import proofs.«134805_j31688268710665_2_alg».proof.Proof.Pieces
import proofs.«134805_j31688268710665_2_alg».proof.Proof.Payload
import proofs.«134805_j31688268710665_2_alg».proof.Proof.Blocks
import proofs.«134805_j31688268710665_2_alg».proof.Proof.Spec

noncomputable section

open Idealize.ShloMosaic Idealize.ShloMosaic.TcCoe Idealize.SL.Sem Idealize.ShloMosaic.ValueIdx

namespace Cert.KernelIdeal.Fold

open Cert.KernelIdeal Cert.KernelIdeal.Gen

variable (m : (ℓ : Loc nD τ sig) → Buf (Elt Ideal) ℓ)

/-- The inner product, over their 512 columns, of row `p` of a left block and row `q` of a weight block. -/
def blockInner (x : Vec Ideal S2048x512 .bf16) (w : Vec Ideal S1024x512 .bf16) (p : Fin 2048) (q : Fin 1024) : EReal :=
  ∑ kk : Fin 512, x (ix2 p kk) * w (ix2 q kk)

/-- Entry (p, q) of the partial product of grid point `n`: the inner product, over their 512 columns, of row `p` of
    the point's left block and row `q` of its weight block (zero for a number that is no grid point). -/
def partialProd (c : Dev nD) (n : ℕ) (p : Fin 2048) (q : Fin 1024) : EReal :=
  if h : n < cfg0.N then blockInner (iblk m c 0 ⟨n, h⟩) (iblk m c 1 ⟨n, h⟩) p q else 0

/-- The same as a block. -/
def addend (c : Dev nD) (n : ℕ) (y : S2048x1024.Idx) : EReal := partialProd m c n (y 0) (y 1)

/-- A first step on operand blocks `x`, `w`, at an entry. -/
theorem first_entry (x : Vec Ideal S2048x512 .bf16) (w : Vec Ideal S1024x512 .bf16) (p : Fin 2048) (q : Fin 1024) :
    k0_pay2 (F := Ideal) (k0_pay1 (F := Ideal)) x w (ix2 p q) = 0 + blockInner x w p q := by
  rw [Payload.step_apply, Payload.zero_apply]; rfl

/-- A later step on an accumulator `acc` and operand blocks `x`, `w`, at an entry. -/
theorem later_entry (acc : Vec Ideal S2048x1024 .f32) (x : Vec Ideal S2048x512 .bf16) (w : Vec Ideal S1024x512 .bf16)
    (p : Fin 2048) (q : Fin 1024) :
    k0_pay2 (F := Ideal) acc x w (ix2 p q) = acc (ix2 p q) + blockInner x w p q := by
  rw [Payload.step_apply]; rfl

/-- What a first point of a run leaves in the accumulator. -/
theorem reset_apply (c : Dev nD) (b : ℕ) (hb : b < cfg0.N) (h0 : b % 8 = 0) (acc : Vec Ideal S2048x1024 .f32)
    (y : S2048x1024.Idx) : Value.scAt0_0 m c b hb acc y = 0 + addend m c b y := by
  obtain ⟨p, q, rfl⟩ : ∃ (p : Fin 2048) (q : Fin 1024), y = ix2 p q := ⟨y 0, y 1, eq_ix2 y⟩
  have h1 : ¬b % 8 = 7 := by omega
  unfold Value.scAt0_0
  rw [dif_pos h0, dif_neg h1, Pieces.scratch_first]
  refine (first_entry _ _ p q).trans ?_
  unfold addend partialProd
  rw [dif_pos hb]

/-- What a later point of a run leaves in the accumulator, over what the point before left. -/
theorem step_apply (c : Dev nD) (n : ℕ) (hn : n < cfg0.N) (h0 : ¬n % 8 = 0) (acc : Vec Ideal S2048x1024 .f32)
    (y : S2048x1024.Idx) : Value.scAt0_0 m c n hn acc y = acc y + addend m c n y := by
  obtain ⟨p, q, rfl⟩ : ∃ (p : Fin 2048) (q : Fin 1024), y = ix2 p q := ⟨y 0, y 1, eq_ix2 y⟩
  unfold Value.scAt0_0
  by_cases h1 : n % 8 = 7
  · rw [dif_neg h0, dif_pos h1, Pieces.scratch_last]
    refine (later_entry _ _ _ p q).trans ?_
    unfold addend partialProd
    rw [dif_pos hn]
  · rw [dif_neg h0, dif_neg h1, Pieces.scratch_middle]
    refine (later_entry _ _ _ p q).trans ?_
    unfold addend partialProd
    rw [dif_pos hn]

/-- The accumulator after a last point: zero plus the run's eight partial products. -/
theorem acc_last (c : Dev nD) (t : Fin cfg0.N) (h7 : t.val % 8 = 7) (y : S2048x1024.Idx) :
    (outsAt0 m c t.val t.isLt).2 y = 0 + ∑ s ∈ Finset.range 8, addend m c (8 * (t.val / 8) + s) y := by
  have hfold : ∀ (j : ℕ) (hj : j ≤ 7) (h : 8 * (t.val / 8) + j < cfg0.N),
      Pipeline.accAt (fun n h => Value.scAt0_0 m c n h (VS0_0.read (Elt Ideal) VS0_0.junk)) (Value.scAt0_0 m c)
        (8 * (t.val / 8)) j h y = 0 + ∑ s ∈ Finset.range (j + 1), addend m c (8 * (t.val / 8) + s) y :=
    fun j hj h => Pipeline.accAt_add_apply (ι := S2048x1024.Idx) (β := EReal)
      (fun n h => Value.scAt0_0 m c n h (VS0_0.read (Elt Ideal) VS0_0.junk)) (Value.scAt0_0 m c) (fun _ => 0)
      (addend m c) (8 * (t.val / 8)) 7
      (fun h i => reset_apply m c _ h (by omega) _ i)
      (fun n h acc i hlt hle => step_apply m c n h (by omega) acc i) j hj h y
  rw [Value.soutsAt0_0_eq m c t, hfold (t.val % 8) (by omega), h7]

/-- At a last point the output block is stored with the accumulator's contents. -/
theorem out_eq_acc (c : Dev nD) (t : Fin cfg0.N) (h7 : t.val % 8 = 7) :
    (outsAt0 m c t.val t.isLt).1 = (outsAt0 m c t.val t.isLt).2 := by
  have h0 : ¬t.val % 8 = 0 := by omega
  rw [outsAt0_C m c t h0 h7]
  dsimp only
  rw [Pieces.out_last, Pieces.scratch_last]

/-- One partial product, read in the operand arrays: a point `8·u + j` of the run that ends at `t` multiplies
    columns `512·j …` of row `r` of the left array and row `s` of the weight array. -/
theorem addend_eq (c : Dev nD) (t : Fin cfg0.N) (h7 : t.val % 8 = 7) (j : ℕ) (hj : j < 8) (p : Fin 2048) (q : Fin 1024)
    (r : Fin 8192) (s : Fin 16384) (hr : r.val = 2048 * (t.val / 128) + p.val)
    (hs : s.val = 1024 * (t.val / 8 % 16) + q.val) :
    addend m c (8 * (t.val / 8) + j) (ix2 p q)
      = ∑ kk : Fin 512, Spec.term (V m c main_v9) (V m c main_v8) r s (512 * j + kk.val) := by
  have hN : cfg0.N = 512 := N_0
  have ht : t.val < 512 := lt_of_lt_of_eq t.isLt hN
  have hn : 8 * (t.val / 8) + j < cfg0.N := lt_of_lt_of_eq (by omega : 8 * (t.val / 8) + j < 512) hN.symm
  unfold addend partialProd
  rw [dif_pos hn]
  unfold blockInner
  refine Finset.sum_congr rfl fun kk _ => ?_
  have hk : 512 * j + kk.val < 4096 := by have := kk.isLt; omega
  rw [show Spec.term (V m c main_v9) (V m c main_v8) r s (512 * j + kk.val)
      = Spec.term (V m c main_v9) (V m c main_v8) r s (⟨512 * j + kk.val, hk⟩ : Fin 4096).val from rfl,
    Spec.term_of_lt]
  rw [Blocks.left_block m c ⟨8 * (t.val / 8) + j, hn⟩ p kk r ⟨512 * j + kk.val, hk⟩ (by show r.val = 2048 * ((8 * (t.val / 8) + j) / 128) + p.val; omega)
      (by show 512 * j + kk.val = 512 * ((8 * (t.val / 8) + j) % 8) + kk.val; omega),
    Blocks.weight_block m c ⟨8 * (t.val / 8) + j, hn⟩ q kk s ⟨512 * j + kk.val, hk⟩ (by show s.val = 1024 * ((8 * (t.val / 8) + j) / 8 % 16) + q.val; omega)
      (by show 512 * j + kk.val = 512 * ((8 * (t.val / 8) + j) % 8) + kk.val; omega)]

/-- THE OUTPUT BLOCK at a last point: entry (p, q) is the full inner product of row `2048·i + p` of the left array
    and row `1024·j + q` of the weight array. -/
theorem out_entry (c : Dev nD) (t : Fin cfg0.N) (h7 : t.val % 8 = 7) (p : Fin 2048) (q : Fin 1024)
    (r : Fin 8192) (s : Fin 16384) (hr : r.val = 2048 * (t.val / 128) + p.val)
    (hs : s.val = 1024 * (t.val / 8 % 16) + q.val) :
    (outsAt0 m c t.val t.isLt).1 (ix2 p q) = Spec.entry (V m c main_v9) (V m c main_v8) r s := by
  rw [out_eq_acc m c t h7, acc_last m c t h7, zero_add, ← Spec.blocks_sum]
  exact Finset.sum_congr rfl fun j hj => addend_eq m c t h7 j (Finset.mem_range.mp hj) p q r s hr hs

end Cert.KernelIdeal.Fold

end
-- ==== Proof.HostPrefix.lean ====
/-
  What the kernel's region finds in its two operand arrays, at the ideal instance.

  Before the region the program computes, on the host, the ternarized weight
  `clip (round (w / (mean |w| + ε)), -1, 1)` and changes both operands' float format.  At the ideal instance a change
  of format is the identity, so the left operand's array holds the argument `x` itself, and the weight's array holds
  exactly the ternarized weight the reference computes: the same operations with the same constants, named here by
  the reference's own stage for it and never opened.
-/
import proofs.«134805_j31688268710665_2_alg».proof.Proof.Gen.KernelIdeal.Frame
import proofs.«134805_j31688268710665_2_alg».proof.Proof.Gen.ReferenceIdeal.Read
import Idealize.ShloMosaic.Lib.StableHlo.Run

noncomputable section

open Idealize.ShloMosaic Idealize.ShloMosaic.TcCoe Idealize.SL.Sem

namespace Cert.KernelIdeal.HostPrefix

open Cert.KernelIdeal Cert.KernelIdeal.Gen

variable (m : (ℓ : Loc nD τ sig) → Buf (Elt Ideal) ℓ)

/-- The ternarized weight as a function of the weight argument: the reference's stage for it. -/
abbrev ternary (w : (⟨2, ![16384, 4096]⟩ : Shape).Idx → EReal) : (⟨2, ![16384, 4096]⟩ : Shape).Idx → EReal :=
  Cert.ReferenceIdeal.Read.val_main_v7 (F := Ideal) w

/-- The left operand's array is the argument `x`. -/
theorem left_array (c : Dev nD) :
    (V m c main_v9 : (⟨2, ![8192, 4096]⟩ : Shape).Idx → EReal) = m ((c : Thread nD τ).loc main_arg0) := by
  dsimp only [Gen.V]
  simp only [Gen.hostOps0, Gen.hostOps0_1, Gen.hostOps0_2, Gen.hostOps0_3, Gen.hostOps0_4, List.flatten_cons,
    List.flatten_nil, List.append_nil, List.cons_append, List.nil_append]
  after_results
  rfl

/-- The weight operand's array is the ternarized weight argument. -/
theorem weight_array (c : Dev nD) :
    (V m c main_v8 : (⟨2, ![16384, 4096]⟩ : Shape).Idx → EReal) = ternary (m ((c : Thread nD τ).loc main_arg1)) := by
  dsimp only [Gen.V]
  simp only [Gen.hostOps0, Gen.hostOps0_1, Gen.hostOps0_2, Gen.hostOps0_3, Gen.hostOps0_4, List.flatten_cons,
    List.flatten_nil, List.append_nil, List.cons_append, List.nil_append]
  after_results
  rfl

end Cert.KernelIdeal.HostPrefix

end
-- ==== Proof.KernelValue.lean ====
/-
  The kernel's result array after its run.

  Only the last of each eight contraction steps writes its output block back, and the 64 blocks so written tile the
  [8192,16384] result: entry (r, s) lies in the block of rows `2048·(r / 2048) …` and columns `1024·(s / 1024) …`.
  Each written block holds the full inner products of the rows it spans, so the result array ends holding
  `x · wᵀ` of the region's two operand arrays — that is, of the argument `x` and of the ternarized weight argument.
-/
import proofs.«134805_j31688268710665_2_alg».proof.Proof.Gen.KernelIdeal.Value
import proofs.«134805_j31688268710665_2_alg».proof.Proof.Fold
import proofs.«134805_j31688268710665_2_alg».proof.Proof.HostPrefix

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen

variable (m : (ℓ : Loc nD τ sig) → Buf (Elt Ideal) ℓ) (ρ : Dev nD → PrngReg)

/-- `x · wᵀ` of the two operand arrays as the region finds them. -/
abbrev regionResult (c : Dev nD) : Buf (Elt Ideal) ((c : Thread nD τ).loc main_v10) :=
  Spec.prodT (V m c main_v9) (V m c main_v8)

/-- What a flushing point writes back is its block of `x · wᵀ`. -/
theorem flushed_eq (c : Dev nD) (t : Fin cfg0.N) (hf : (cfg0.win 2).flush t = true) :
    (dats m 0 c).flushed 2 t = ((cfg0.win 2).blk t).view.read (Elt Ideal) (regionResult m c) := by
  have h7 : t.val % 8 = 7 := (flush0_2 t).mp hf
  have ht : t.val < 512 := lt_of_lt_of_eq t.isLt (show cfg0.N = 512 from N_0)
  obtain ⟨-, -, -, -, e4, e5⟩ := Blocks.index_facts t
  rw [Value.flushed2]
  refine funext fun (y : S2048x1024.Idx) => ?_
  obtain ⟨p, q, rfl⟩ : ∃ (p : Fin 2048) (q : Fin 1024), y = ix2 p q := ⟨y 0, y 1, eq_ix2 y⟩
  have hp := p.isLt
  have hq := q.isLt
  show (outsAt0 m c t.val t.isLt).1 (ix2 p q)
    = Spec.prodT (V m c main_v9) (V m c main_v8) (((cfg0.win 2).blk t).view.emb (ix2 p q))
  rw [Fold.out_entry m c t h7 p q ⟨2048 * (t.val / 128) + p.val, by omega⟩ ⟨1024 * (t.val / 8 % 16) + q.val, by omega⟩ rfl rfl]
  unfold Spec.prodT
  refine congr (congrArg (Spec.entry _ _) (Fin.ext ?_)) (Fin.ext ?_)
  · show 2048 * (t.val / 128) + p.val = win0_2.index t (0 : Fin 2) * 2048 + 1 * p.val
    rw [e4]; omega
  · show 1024 * (t.val / 8 % 16) + q.val = win0_2.index t (1 : Fin 2) * 1024 + 1 * q.val
    rw [e5]; omega

/-- An entry of the result is in a point's output block iff each coordinate is in the block's range on its axis. -/
theorem mem_blk (t : Fin cfg0.N) (i : S8192x16384.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v10).slice (win0_2.rect t)).set ↔ _
  rw [View.set_slice_whole, Rect.mem_set_unit]
  exact Iff.rfl

/-- Every entry of the result is in the block some flushing point writes back. -/
theorem cover (i : S8192x16384.Idx) :
    ∃ t : Fin cfg0.N, (cfg0.win 2).flush t = true ∧ i ∈ ((cfg0.win 2).blk t).view.set := by
  have hi0 : (i 0).val < 8192 := (i 0).isLt
  have hi1 : (i 1).val < 16384 := (i 1).isLt
  have hN : cfg0.N = 512 := N_0
  obtain ⟨tv, htv⟩ : ∃ tv : ℕ, tv = 128 * ((i 0).val / 2048) + 8 * ((i 1).val / 1024) + 7 := ⟨_, rfl⟩
  have hlt : tv < cfg0.N := lt_of_lt_of_eq (by omega : tv < 512) hN.symm
  obtain ⟨-, -, -, -, e4, e5⟩ := Blocks.index_facts ⟨tv, hlt⟩
  refine ⟨⟨tv, hlt⟩, (flush0_2 _).mpr (by show tv % 8 = 7; omega), ?_⟩
  rw [mem_blk]
  intro a
  match a with
  | ⟨0, _⟩ =>
    show win0_2.index ⟨tv, hlt⟩ (0 : Fin 2) * 2048 ≤ (i 0).val ∧ (i 0).val < win0_2.index ⟨tv, hlt⟩ (0 : Fin 2) * 2048 + 2048
    rw [e4]; show tv / 128 * 2048 ≤ (i 0).val ∧ (i 0).val < tv / 128 * 2048 + 2048; omega
  | ⟨1, _⟩ =>
    show win0_2.index ⟨tv, hlt⟩ (1 : Fin 2) * 1024 ≤ (i 1).val ∧ (i 1).val < win0_2.index ⟨tv, hlt⟩ (1 : Fin 2) * 1024 + 1024
    rw [e5]; show tv / 8 % 16 * 1024 ≤ (i 1).val ∧ (i 1).val < tv / 8 % 16 * 1024 + 1024; omega

/-- The result array after the run, in the region's operand arrays. -/
theorem final (c : Dev nD) : (dats m 0 c).arrAt 2 cfg0.N = regionResult m c :=
  (dats m 0 c).arrAt_eq_of_cover 2 (regionResult m c) (flushed_eq m c) cover

/-- The result array after the run, in the program's arguments. -/
theorem final_args (c : Dev nD) : (dats m 0 c).arrAt 2 cfg0.N
    = Spec.prodT (m ((c : Thread nD τ).loc main_arg0)) (HostPrefix.ternary (m ((c : Thread nD τ).loc main_arg1))) := by
  rw [final m c, ← HostPrefix.left_array m c, ← HostPrefix.weight_array m c]

/-- The kernel program's run: the result array ends at `x · (ternarized w)ᵀ`, the arguments unchanged. -/
theorem run : θ_run defs (onTc (τ := τ) (main (F := Ideal))) ⟨m, fun _ => 0, ρ⟩ fun r => ∀ c : Dev nD,
      r.2.mem ((c : Thread nD τ).loc main_v10)
        = Spec.prodT (m ((c : Thread nD τ).loc main_arg0)) (HostPrefix.ternary (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_args m c), (h c).2⟩) (Value.run_blocks m ρ)

end Cert.KernelIdeal.KernelValue

end
-- ==== Proof.RefValue.lean ====
/-
  The reference computes the specification.

  The reference ternarizes the weight, transposes it and contracts the 4096 columns of `x` against the 4096 rows of
  the transposed weight in one product.  Entry (r, s) of the product is `Σ_k x (r, k) · wᵀ (k, s)`, and the transpose
  read at (k, s) is the ternarized weight at (s, k): the reference's result is `x · (ternarized w)ᵀ`.
-/
import proofs.«134805_j31688268710665_2_alg».proof.Proof.Gen.ReferenceIdeal.Read
import proofs.«134805_j31688268710665_2_alg».proof.Proof.Spec

noncomputable section

open Idealize.ShloMosaic Idealize.ShloMosaic.ValueIdx

namespace Cert.ReferenceIdeal.RefValue

open Cert.ReferenceIdeal Cert.ReferenceIdeal.Read

theorem result_eq (x0 : (⟨S8192x4096, .f32⟩ : BufTy).Contents (Elt Ideal))
    (x1 : (⟨S16384x4096, .f32⟩ : BufTy).Contents (Elt Ideal)) :
    val_main_v9 (F := Ideal) x0 x1 = Cert.Spec.prodT x0 (val_main_v7 (F := Ideal) x1) := by
  funext i
  rw [val_main_v9_apply]
  unfold Cert.Spec.prodT Cert.Spec.entry
  refine Finset.sum_congr rfl fun k _ => ?_
  rw [val_main_v8_apply]
  have el : lidx_main_v9 i k = ix2 (⟨(i 0).val, idx2_lt0 i⟩ : Fin 8192) k := funext fun a => Fin.ext (by
    match a with
    | ⟨0, _⟩ => rfl
    | ⟨1, _⟩ => rfl)
  have er : idx_main_v8 (ridx_main_v9 i k) = ix2 (⟨(i 1).val, idx2_lt1 i⟩ : Fin 16384) k := funext fun a => Fin.ext (by
    match a with
    | ⟨0, _⟩ => rfl
    | ⟨1, _⟩ => rfl)
  rw [el, er]

end Cert.ReferenceIdeal.RefValue

end
-- ==== Proof.lean ====
/-
  The proof of `Cert.Claim`: a ternary-weight linear layer computed by a tiled kernel against its plain reference.

  Both programs ternarize the weight on the host with the same operations and constants,
  `w_q = clip (round (w / (mean |w| + ε)), -1, 1)`, and return `x · w_qᵀ`.  The reference contracts the 4096 columns
  in one product.  The kernel walks a [4,16,8] grid: for each [2048,1024] block of the result it zeroes an accumulator,
  adds eight partial products of 512 columns each, and writes the block out after the eighth.  Read over the extended
  reals a change of float format is the identity and both matrix products are exact sums, so the two results differ
  only in how one sum is grouped; addition of extended reals is commutative and associative without exception, so
  they are equal, and the finiteness of the inputs is never used.

  The modules: Spec (the specification and the grouping law), Pieces and Payload (what one grid step leaves, as a
  value and at an entry), Blocks (where the windows sit in their arrays), HostPrefix (what the region finds in its
  operand arrays), Fold (the accumulator after the eighth step), KernelValue (the kernel's result array and run),
  RefValue (the reference computes the specification), Frames (termination, no fault, arguments unchanged).
-/
import proofs.«134805_j31688268710665_2_alg».proof.Defs
import proofs.«134805_j31688268710665_2_alg».proof.Proof.Frames
import proofs.«134805_j31688268710665_2_alg».proof.Proof.KernelValue
import proofs.«134805_j31688268710665_2_alg».proof.Proof.RefValue
import proofs.«134805_j31688268710665_2_alg».proof.Proof.Gen.Kernel
import proofs.«134805_j31688268710665_2_alg».proof.Proof.Gen.KernelIdeal
import proofs.«134805_j31688268710665_2_alg».proof.Proof.Gen.ReferenceIdeal
import proofs.«134805_j31688268710665_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- From memories that agree on the two arguments, the kernel's result array and the reference's both end at
    `x · (ternarized w)ᵀ`. -/
theorem algebraic : Cert.algebraic_KernelIdeal_ReferenceIdeal := by
  intro m ρ m' ρ' _ hagree
  refine ⟨fun c => Cert.Spec.prodT (m ((c : Thread Cert.KernelIdeal.nD Cert.KernelIdeal.τ).loc Cert.KernelIdeal.main_arg0))
      (Cert.KernelIdeal.HostPrefix.ternary (m ((c : Thread Cert.KernelIdeal.nD Cert.KernelIdeal.τ).loc Cert.KernelIdeal.main_arg1))),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    Frames.frame_kernel, Frames.frame_kernelIdeal, Frames.frame_referenceIdeal, Frames.preserves, algebraic⟩

end Cert.Proof

end
